-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S100000x64 : Shape := ⟨2, ![100000, 64]⟩

abbrev nBuf : Space → Nat
  | .hbm => 72
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S_, .f32⟩
  | .hbm, ⟨49, _⟩ => ⟨S128x128, .f32⟩
  | .hbm, ⟨50, _⟩ => ⟨S_, .i32⟩
  | .hbm, ⟨51, _⟩ => ⟨S_, .f32⟩
  | .hbm, ⟨52, _⟩ => ⟨S128x128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_call1_v0 : Ref sig .tc := ⟨.hbm, 48, rfl⟩
abbrev main_v28 : Ref sig .tc := ⟨.hbm, 49, rfl⟩
abbrev main_c_8 : Ref sig .tc := ⟨.hbm, 50, rfl⟩
abbrev main_call2_v0 : Ref sig .tc := ⟨.hbm, 51, rfl⟩
abbrev main_v29 : Ref sig .tc := ⟨.hbm, 52, rfl⟩
abbrev main_c_9 : Ref sig .tc := ⟨.hbm, 53, rfl⟩
abbrev main_call3_v0 : Ref sig .tc := ⟨.hbm, 54, rfl⟩
abbrev main_v30 : Ref sig .tc := ⟨.hbm, 55, rfl⟩
abbrev main_c_10 : Ref sig .tc := ⟨.hbm, 56, rfl⟩
abbrev main_v31 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  pads_S128x64_S128x128_000_0640 : S128x64.Pads (![0, 0] : Fin 2 → Nat) ![0, 64] ![0, 0] S128x128
  h_S_ : 0 < S_.numel
  pads_S64_S128_0640 : S64.Pads (![0] : Fin 1 → Nat) ![64] ![0] S128
  shapeCasts_S128x128_S128x128 : S128x128.ShapeCasts S128x128
  slices_S100000x128_S100000x64_0_0 : S100000x128.Slices ![0, 0] S100000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named.

  Every weakly fair execution of @main — three stretches of host operations, the first fused-layer launch, seven
  stretches, the second launch, and the closing slice — terminates without a fault, and every buffer that outlives
  the launches then holds the contents the fold of those segments gives it from the launch memory (`Gen.W13`): in
  particular the returned array `main_v43`, and each argument array, which nothing writes. The frame certificate
  states this run with the arguments kept; here it is stated with the result buffer kept as well.
-/
import proofs.«114157_j28346784153651_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- After the run the result array holds what the fold of @main's segments leaves in it, and the arguments are as
    launched. -/
theorem run_result : θ_run defs (onTc (τ := τ) (main (F := F))) ⟨m, fun _ => 0, ρ⟩ (fun r => ∀ c : Dev nD,
      r.2.mem ((c.tc : Thread nD τ).loc main_v43) = W13 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v43 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.Run

end
-- ==== Proof.HostFold.lean ====
/-
  The host operations of the kernel program around its two launches, read one buffer at a time.

  @main's host lines fall in three groups: before the first launch (the edge list split into sources and
  destinations, the in-degrees and their guarded reciprocals, the gather of the input features along the edges
  and their scatter-add into the destinations, the reshapes of the reciprocal degrees to a column and of the bias
  to a row); between the launches (the second layer's weights and bias padded with zero columns to 128 lanes, and
  the same gather and scatter-add of the hidden features); and after the second launch (the cut back to 64
  channels). Each lemma says what ONE buffer holds after a group, from ANY contents `V` before it, in terms of the
  buffers the group reads. The aggregation, the reciprocal degrees and the index vectors are the reference
  program's own stages (RefRead.lean): both programs apply the same operations to the same operands.
-/
import proofs.«114157_j28346784153651_2_alg».proof.Proof.Gen.KernelIdeal.Launch
import proofs.«114157_j28346784153651_2_alg».proof.Proof.RefRead
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- The features of the edges' sources summed into the edges' destinations: the gather along the (wrapped) source
    indices followed by the scatter-add into the zero array at the destination indices — in the reference's own
    stages, as a function of the feature array and the two index vectors. -/
def aggregate (x : (⟨Cert.ReferenceIdeal.S100000x128, .f32⟩ : BufTy).Contents (Elt Ideal))
    (src dst : (⟨Cert.ReferenceIdeal.S1600000, .i32⟩ : BufTy).Contents (Elt Ideal)) :
    (⟨Cert.ReferenceIdeal.S100000x128, .f32⟩ : BufTy).Contents (Elt Ideal) :=
  Host.scatterAdd (F := Ideal) (φ := .f32) Cert.ReferenceIdeal.scatter_S100000x128_S1600000x1_S1600000x128_1_0_0_1
    (Cert.ReferenceIdeal.ReadP.val_main_v22 (F := Ideal))
    (broadcastInDim Cert.ReferenceIdeal.S1600000x1 ![0] Cert.ReferenceIdeal.Facts₀.bcast_S1600000_S1600000x1_0 dst)
    (Host.gather (α := Ideal .f32) Cert.ReferenceIdeal.gather_S100000x128_S1600000x1_S1600000x128_1_0_n_n_0_1_1128 x
      (broadcastInDim Cert.ReferenceIdeal.S1600000x1 ![0] Cert.ReferenceIdeal.Facts₀.bcast_S1600000_S1600000x1_0
        (select (cmpi .slt src (Cert.ReferenceIdeal.ReadP.val_main_v15 (F := Ideal)))
          (addi src (Cert.ReferenceIdeal.ReadP.val_main_v17 (F := Ideal))) src)))

variable (V : Valuation τ sig (Elt Ideal))

/-! ## Before the first launch -/

/-- The three stretches of host operations before the first launch, from contents `V`. -/
abbrev before0 : Valuation τ sig (Elt Ideal) :=
  StableHlo.after hostOps0_2 (StableHlo.after hostOps0_1 (StableHlo.after hostOps0 V))

theorem s0_v1 : StableHlo.after hostOps0 V (Proc.devRef .tc main_v1)
    = Cert.ReferenceIdeal.ReadP.val_main_v1 (F := Ideal) (V (Proc.devRef .tc main_arg1)) := by
  after_results_simp
  rfl
theorem s0_v3 : StableHlo.after hostOps0 V (Proc.devRef .tc main_v3)
    = Cert.ReferenceIdeal.ReadP.val_main_v3 (F := Ideal) (V (Proc.devRef .tc main_arg1)) := by
  after_results_simp
  rfl
theorem s0_v9 : StableHlo.after hostOps0 V (Proc.devRef .tc main_v9)
    = Cert.ReferenceIdeal.ReadP.val_main_v9 (F := Ideal) (V (Proc.devRef .tc main_arg1)) := by
  after_results_simp
  rfl
theorem s0_v13 : StableHlo.after hostOps0 V (Proc.devRef .tc main_v13)
    = Cert.ReferenceIdeal.ReadP.val_main_v13 (F := Ideal) (V (Proc.devRef .tc main_arg1)) := by
  after_results_simp
  rfl
theorem s0_cst4 : StableHlo.after hostOps0 V (Proc.devRef .tc main_cst_4)
    = Cert.ReferenceIdeal.ReadP.val_main_cst_4 (F := Ideal) := by
  after_results_simp
  rfl
theorem s01_v14 : StableHlo.after hostOps0_1 V (Proc.devRef .tc main_v14)
    = select (V (Proc.devRef .tc main_v9)) (V (Proc.devRef .tc main_v13))
        (broadcastInDim S100000 ![] bcast_S_S100000 (V (Proc.devRef .tc main_cst_4))) := by
  after_results_simp
  rfl

/-- The guarded reciprocal in-degrees, as the reference computes them from the edge list. -/
theorem s01_degInv : StableHlo.after hostOps0_1 (StableHlo.after hostOps0 V) (Proc.devRef .tc main_v14)
    = Cert.ReferenceIdeal.ReadP.val_main_v14 (F := Ideal) (V (Proc.devRef .tc main_arg1)) := by
  rw [s01_v14, s0_v9, s0_v13, s0_cst4]
  rfl

theorem s02_v15 : StableHlo.after hostOps0_2 V (Proc.devRef .tc main_v15)
    = shapeCast S100000x1 (V (Proc.devRef .tc main_v14)) shapeCasts_S100000_S100000x1 := by
  after_results_simp
  rfl

/-- The reciprocal degrees as a column. -/
theorem before0_v15 : before0 V (Proc.devRef .tc main_v15)
    = shapeCast S100000x1 (Cert.ReferenceIdeal.ReadP.val_main_v14 (F := Ideal) (V (Proc.devRef .tc main_arg1))) shapeCasts_S100000_S100000x1 := by
  show StableHlo.after hostOps0_2 (StableHlo.after hostOps0_1 (StableHlo.after hostOps0 V)) (Proc.devRef .tc main_v15) = _
  rw [s02_v15, s01_degInv]

/-- The source and destination index vectors. -/
theorem before0_v1 : before0 V (Proc.devRef .tc main_v1)
    = Cert.ReferenceIdeal.ReadP.val_main_v1 (F := Ideal) (V (Proc.devRef .tc main_arg1)) := by
  after_results_simp
  rfl
theorem before0_v3 : before0 V (Proc.devRef .tc main_v3)
    = Cert.ReferenceIdeal.ReadP.val_main_v3 (F := Ideal) (V (Proc.devRef .tc main_arg1)) := by
  after_results_simp
  rfl

/-- The input features aggregated over the edges. -/
theorem before0_v25 : before0 V (Proc.devRef .tc main_v25)
    = aggregate (V (Proc.devRef .tc main_arg0))
        (Cert.ReferenceIdeal.ReadP.val_main_v1 (F := Ideal) (V (Proc.devRef .tc main_arg1)))
        (Cert.ReferenceIdeal.ReadP.val_main_v3 (F := Ideal) (V (Proc.devRef .tc main_arg1))) := by
  after_results_simp
  rfl

/-- The first layer's bias as a row. -/
theorem before0_v26 : before0 V (Proc.devRef .tc main_v26)
    = shapeCast S1x128 (V (Proc.devRef .tc main_arg4)) shapeCasts_S128_S1x128 := by
  after_results_simp
  rfl

/-- The arguments pass through. -/
theorem before0_arg0 : before0 V (Proc.devRef .tc main_arg0) = V (Proc.devRef .tc main_arg0) := by after_results_simp
theorem before0_arg2 : before0 V (Proc.devRef .tc main_arg2) = V (Proc.devRef .tc main_arg2) := by after_results_simp
theorem before0_arg3 : before0 V (Proc.devRef .tc main_arg3) = V (Proc.devRef .tc main_arg3) := by after_results_simp
theorem before0_arg5 : before0 V (Proc.devRef .tc main_arg5) = V (Proc.devRef .tc main_arg5) := by after_results_simp
theorem before0_arg6 : before0 V (Proc.devRef .tc main_arg6) = V (Proc.devRef .tc main_arg6) := by after_results_simp
theorem before0_arg7 : before0 V (Proc.devRef .tc main_arg7) = V (Proc.devRef .tc main_arg7) := by after_results_simp

/-! ## Between the launches -/

/-- The seven stretches of host operations between the launches, from contents `V`. -/
abbrev between : Valuation τ sig (Elt Ideal) :=
  StableHlo.after hostOps1_6 (StableHlo.after hostOps1_5 (StableHlo.after hostOps1_4 (StableHlo.after hostOps1_3
    (StableHlo.after hostOps1_2 (StableHlo.after hostOps1_1 (StableHlo.after hostOps1 V))))))

/-- The hidden features aggregated over the edges. -/
theorem between_v40 : between V (Proc.devRef .tc main_v40)
    = aggregate (V (Proc.devRef .tc main_v27)) (V (Proc.devRef .tc main_v1)) (V (Proc.devRef .tc main_v3)) := by
  after_results_simp
  rfl

/-- The hidden features and the reciprocal-degree column pass through. -/
theorem between_v27 : between V (Proc.devRef .tc main_v27) = V (Proc.devRef .tc main_v27) := by after_results_simp
theorem between_v15 : between V (Proc.devRef .tc main_v15) = V (Proc.devRef .tc main_v15) := by after_results_simp

/-- The padding value: the integer zero converted to a float. -/
def padValue : (⟨S_, .f32⟩ : BufTy).Contents (Elt Ideal) := sitofp (F := Ideal) .f32 (constantI S_ 32 0#32)

/-- The second layer's weights with 64 further columns of the padding value. -/
theorem between_v28 : between V (Proc.devRef .tc main_v28)
    = pad S128x128 ![0, 0] ![0, 64] ![0, 0] (V (Proc.devRef .tc main_arg5)) padValue pads_S128x64_S128x128_000_0640 h_S_ := by
  after_results_simp
  rfl
theorem between_v29 : between V (Proc.devRef .tc main_v29)
    = pad S128x128 ![0, 0] ![0, 64] ![0, 0] (V (Proc.devRef .tc main_arg6)) padValue pads_S128x64_S128x128_000_0640 h_S_ := by
  after_results_simp
  rfl

/-- The second layer's bias with 64 further entries of the padding value, as a row. -/
theorem between_v41 : between V (Proc.devRef .tc main_v41)
    = shapeCast S1x128 (pad S128 ![0] ![64] ![0] (V (Proc.devRef .tc main_arg7)) padValue pads_S64_S128_0640 h_S_) shapeCasts_S128_S1x128 := by
  after_results_simp
  rfl

/-! ## After the second launch -/

/-- The result: the first 64 channels of the second launch's output. -/
theorem after1_v43 : StableHlo.after hostOps2 V (Proc.devRef .tc main_v43)
    = extractStridedSlice S100000x64 ![0, 0] (V (Proc.devRef .tc main_v42)) slices_S100000x128_S100000x64_0_0 := by
  after_results_simp

end Cert.KernelIdeal.Host

end
-- ==== Proof.SageLayer.lean ====
/-
  One layer of a GraphSAGE convolution with mean aggregation, entry by entry, over the extended reals.

  For node `r` and output channel `c` the layer's value before its activation is
      (∑ k, (agg r k · d r) · Wl k c) + (∑ k, x r k · Wr k c) + b c
  where `agg r` is the sum of the features of the sources of the edges into `r`, `d r` the reciprocal of `r`'s
  in-degree (zero for an isolated node), `x r` the node's own features, `Wl`, `Wr` the two weight matrices and `b`
  the bias. The value at `(r, c)` depends on row `r` of `agg` and `x`, on `d r`, and on column `c` of the weights
  and of the bias only: the two congruence lemmas below say so, and they are what lets a row tile of the nodes, or
  weights padded with extra columns that are cut off again, compute the same entry.
-/
import Idealize.ShloMosaic.PureOps.Ideal

noncomputable section

namespace Cert.Sage

/-- The layer's value at node `r`, channel `c`, before the activation. -/
def pre {n ci co : ℕ} (agg x : Fin n → Fin ci → EReal) (d : Fin n → EReal) (Wl Wr : Fin ci → Fin co → EReal)
    (b : Fin co → EReal) (r : Fin n) (c : Fin co) : EReal :=
  (∑ k : Fin ci, agg r k * d r * Wl k c) + (∑ k : Fin ci, x r k * Wr k c) + b c

/-- The entry at node `r` reads row `r` only: a tile of the nodes that holds that row computes the same entry. -/
theorem pre_congr_row {n n' ci co : ℕ} (agg x : Fin n → Fin ci → EReal) (d : Fin n → EReal)
    (agg' x' : Fin n' → Fin ci → EReal) (d' : Fin n' → EReal) (Wl Wr : Fin ci → Fin co → EReal) (b : Fin co → EReal)
    (r : Fin n) (r' : Fin n') (c : Fin co)
    (ha : ∀ k, agg r k = agg' r' k) (hx : ∀ k, x r k = x' r' k) (hd : d r = d' r') :
    pre agg x d Wl Wr b r c = pre agg' x' d' Wl Wr b r' c := by
  unfold pre
  simp only [ha, hx, hd]

/-- The entry at channel `c` reads column `c` of the weights and of the bias only: weights and bias padded with
    further columns give the same entry at a column they share. -/
theorem pre_congr_col {n ci co co' : ℕ} (agg x : Fin n → Fin ci → EReal) (d : Fin n → EReal)
    (Wl Wr : Fin ci → Fin co → EReal) (b : Fin co → EReal) (Wl' Wr' : Fin ci → Fin co' → EReal) (b' : Fin co' → EReal)
    (r : Fin n) (c : Fin co) (c' : Fin co')
    (hl : ∀ k, Wl k c = Wl' k c') (hr : ∀ k, Wr k c = Wr' k c') (hb : b c = b' c') :
    pre agg x d Wl Wr b r c = pre agg x d Wl' Wr' b' r c' := by
  unfold pre
  simp only [hl, hr, hb]

/-- Both at once: an entry is determined by the row of the node data and the column of the weights it reads. -/
theorem pre_entry {n n' ci co co' : ℕ} (agg x : Fin n → Fin ci → EReal) (d : Fin n → EReal)
    (Wl Wr : Fin ci → Fin co → EReal) (b : Fin co → EReal)
    (agg' x' : Fin n' → Fin ci → EReal) (d' : Fin n' → EReal) (Wl' Wr' : Fin ci → Fin co' → EReal) (b' : Fin co' → EReal)
    (r : Fin n) (r' : Fin n') (c : Fin co) (c' : Fin co')
    (ha : ∀ k, agg r k = agg' r' k) (hx : ∀ k, x r k = x' r' k) (hd : d r = d' r')
    (hl : ∀ k, Wl k c = Wl' k c') (hr : ∀ k, Wr k c = Wr' k c') (hb : b c = b' c') :
    pre agg x d Wl Wr b r c = pre agg' x' d' Wl' Wr' b' r' c' := by
  unfold pre
  simp only [ha, hx, hd, hl, hr, hb]

/-- The layer's value is a function of its operands: equal operands, equal entries. -/
theorem pre_congr {n ci co : ℕ} {agg agg' x x' : Fin n → Fin ci → EReal} {d d' : Fin n → EReal}
    {Wl Wl' Wr Wr' : Fin ci → Fin co → EReal} {b b' : Fin co → EReal}
    (ha : agg = agg') (hx : x = x') (hd : d = d') (hl : Wl = Wl') (hr : Wr = Wr') (hb : b = b') (r : Fin n) (c : Fin co) :
    pre agg x d Wl Wr b r c = pre agg' x' d' Wl' Wr' b' r c := by
  subst ha hx hd hl hr hb; rfl

end Cert.Sage

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KernelPoint.lean ====
/-
  What one row tile of the fused layer computes, entry by entry, over the extended reals.

  The body of either launch loads a tile of 4000 rows of the aggregated features, of the nodes' own features and of the
  reciprocal in-degrees (a column), the two 128 × 128 weight matrices and the bias (a row), and stores
      mean · Wl + x · Wr + b        with mean = agg · deginv (the column spread over the 128 lanes),
  the first launch followed by a maximum with zero. The two products are matrix products into a zero accumulator, so
  each entry is a sum over the 128 input channels; the roundings to bfloat16 on the way into the products are the
  identity over the extended reals. Entry (p, q) of the tile is therefore the layer's value `Sage.pre` at row p,
  channel q, of the tile's operands read by coordinates.
-/
import proofs.«114157_j28346784153651_2_alg».proof.Proof.Gen.KernelIdeal.Skeleton
import proofs.«114157_j28346784153651_2_alg».proof.Proof.SageLayer
import proofs.«114157_j28346784153651_2_alg».proof.Proof.LibPlainMatmul
import proofs.«114157_j28346784153651_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx Cert.Sage

/-- A tile's product with a weight matrix into the zero accumulator, at entry (p, q): the sum over the input channels. -/
theorem tile_matmul (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) :=
  Cert.LibPlainMatmul.matmul_zero_apply dot_S4000x128_S128x128_S4000x128_1_0_0_1_n_n rfl rfl rfl rfl rfl rfl none l r p q

/-- The column of reciprocal degrees spread over the lanes, at (p, k): the column's entry in row p. -/
theorem deg_col (x2 : Vec Ideal S4000x1 .f32) (p : Fin 4000) (k : Fin 128) :
    broadcastTo S4000x128 x2 broadcasts_S4000x1_S4000x128 (ix2 p k) = x2 (ix2 p 0) :=
  Cert.Rows.bcast_col (by decide) x2 broadcasts_S4000x1_S4000x128 p k

/-- The bias row spread over the rows, at (p, q): the row's entry in lane q. -/
theorem bias_row (x5 : Vec Ideal S1x128 .f32) (p : Fin 4000) (q : Fin 128) :
    broadcastTo S4000x128 x5 broadcasts_S1x128_S4000x128 (ix2 p q) = x5 (ix2 0 q) :=
  Cert.Rows.bcast_row (by decide) x5 broadcasts_S1x128_S4000x128 p q

/-- The first launch's stored tile at (p, q): the layer's value there, then the maximum with zero. -/
theorem pay0_apply (x0 x1 : Vec Ideal S4000x128 .f32) (x2 : Vec Ideal S4000x1 .f32) (x3 x4 : Vec Ideal S128x128 .f32)
    (x5 : Vec Ideal S1x128 .f32) (p : Fin 4000) (q : Fin 128) :
    k0_pay1 (F := Ideal) x0 x2 x1 x3 x4 x5 (ix2 p q)
      = max (pre (fun r k => x0 (ix2 r k)) (fun r k => x1 (ix2 r k)) (fun r => x2 (ix2 r 0)) (fun k c => x3 (ix2 k c))
          (fun k c => x4 (ix2 k c)) (fun c => x5 (ix2 0 c)) p q) (Ideal.ofBits .f32 0x00000000#32) := by
  unfold k0_pay1 pre
  simp only [maximumf_apply, addf_apply, broadcast_apply, tile_matmul, truncf_apply, mulf_apply, shapeCast_self]
  rw [bias_row]
  refine congrArg₂ max (congrArg₂ (· + ·) (congrArg₂ (· + ·) (Finset.sum_congr rfl fun k _ => ?_) rfl) rfl) rfl
  rw [deg_col]

/-- The second launch's stored tile at (p, q): the layer's value there. -/
theorem pay1_apply (x0 x1 : Vec Ideal S4000x128 .f32) (x2 : Vec Ideal S4000x1 .f32) (x3 x4 : Vec Ideal S128x128 .f32)
    (x5 : Vec Ideal S1x128 .f32) (p : Fin 4000) (q : Fin 128) :
    k1_pay1 (F := Ideal) x0 x2 x1 x3 x4 x5 (ix2 p q)
      = pre (fun r k => x0 (ix2 r k)) (fun r k => x1 (ix2 r k)) (fun r => x2 (ix2 r 0)) (fun k c => x3 (ix2 k c))
          (fun k c => x4 (ix2 k c)) (fun c => x5 (ix2 0 c)) p q := by
  unfold k1_pay1 pre
  simp only [addf_apply, tile_matmul, truncf_apply, mulf_apply, shapeCast_self]
  rw [bias_row]
  refine congrArg₂ (· + ·) (congrArg₂ (· + ·) (Finset.sum_congr rfl fun k _ => ?_) rfl) rfl
  rw [deg_col]

end Cert.KernelIdeal.Point

end
-- ==== Proof.Layer0.lean ====
/-
  The first fused-layer launch as ONE function of the arrays it finds.

  The launch walks 25 row tiles of 4000 nodes. At tile t it fetches rows 4000·t … 4000·t + 3999 of the aggregated
  features, of the nodes' own features and of the reciprocal-degree column, the whole of both weight matrices and of the
  bias row, and writes rows 4000·t … of the result. A tile's entry (p, q) is the layer's value at row p of the tile
  (KernelPoint.lean), which reads row p of the tile's node data only — row 4000·t + p of the arrays — so the tile is
  the restriction of one whole-array function, `layerOut`, and since the 25 tiles cover all 100000 rows the result
  array after the launch IS that function.
-/
import proofs.«114157_j28346784153651_2_alg».proof.Proof.Gen.KernelIdeal.Frame
import proofs.«114157_j28346784153651_2_alg».proof.Proof.KernelPoint
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The launch's operands as it finds them, read by coordinates. -/
def nodeRows (c : Dev nD) : Fin 100000 → Fin 128 → EReal := fun r k => (V c main_v25 : S100000x128.Idx → EReal) (ix2 r k)
def selfRows (c : Dev nD) : Fin 100000 → Fin 128 → EReal := fun r k => (V c main_arg0 : S100000x128.Idx → EReal) (ix2 r k)
def degInv (c : Dev nD) : Fin 100000 → EReal := fun r => (V c main_v15 : S100000x1.Idx → EReal) (ix2 r 0)
def wLeft (c : Dev nD) : Fin 128 → Fin 128 → EReal := fun k q => (V c main_arg2 : S128x128.Idx → EReal) (ix2 k q)
def wRight (c : Dev nD) : Fin 128 → Fin 128 → EReal := fun k q => (V c main_arg3 : S128x128.Idx → EReal) (ix2 k q)
def bias (c : Dev nD) : Fin 128 → EReal := fun q => (V c main_v26 : S1x128.Idx → EReal) (ix2 0 q)

/-- What the result array holds after the launch: the layer's value at every node and channel, cut off below at zero. -/
def layerOut (c : Dev nD) : S100000x128.Idx → EReal := fun i =>
  max (pre (nodeRows V c) (selfRows V c) (degInv V c) (wLeft V c) (wRight V c) (bias V c) (i 0) (i 1)) (Ideal.ofBits .f32 0x00000000#32)

theorem hz : (![0, 0] : Fin 2 → Nat) = fun _ => 0 := funext fun a => by fin_cases a <;> rfl

/-- A tile's stored entry (p, q) from operands that agree with whole-array operands on the rows and columns the entry
    reads: the whole-array layer's value at the matching array index `i`. -/
theorem point (x0 x1 : Vec Ideal S4000x128 .f32) (x2 : Vec Ideal S4000x1 .f32) (x3 x4 : Vec Ideal S128x128 .f32)
    (x5 : Vec Ideal S1x128 .f32) (A X : Fin 100000 → Fin 128 → EReal) (D : Fin 100000 → EReal)
    (Wl Wr : Fin 128 → Fin 128 → EReal) (B : Fin 128 → EReal) (p : Fin 4000) (q : Fin 128) (i : S100000x128.Idx)
    (hq : (i 1).val = q.val)
    (h0 : ∀ k : Fin 128, x0 (ix2 p k) = A (i 0) k) (h1 : ∀ k : Fin 128, x1 (ix2 p k) = X (i 0) k)
    (h2 : x2 (ix2 p 0) = D (i 0)) (h3 : ∀ (k c : Fin 128), x3 (ix2 k c) = Wl k c)
    (h4 : ∀ (k c : Fin 128), x4 (ix2 k c) = Wr k c) (h5 : ∀ c : Fin 128, x5 (ix2 0 c) = B c) :
    k0_pay1 (F := Ideal) x0 x2 x1 x3 x4 x5 (ix2 p q) = max (pre A X D Wl Wr B (i 0) (i 1)) (Ideal.ofBits .f32 0x00000000#32) := by
  have e : i 1 = q := Fin.ext hq
  rw [Cert.KernelIdeal.Point.pay0_apply, e]
  refine congrArg₂ max ?_ rfl
  exact pre_entry _ _ _ _ _ _ A X D Wl Wr B p (i 0) q q h0 h1 h2 (fun k => h3 k q) (fun k => h4 k q) (h5 q)

/-- The printed index maps over the 25 tiles: the three row-tiled inputs move with the output tile, the weights and the
    bias stay put, and the output's tile index is the tile's number. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 24 ∧ win0_6.index t (1 : Fin 2) = 0 :=
  (by decide +kernel : ∀ t : Fin grid0.N, _)

/-- Every tile number is some grid point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- WHAT TILE `t` WRITES BACK is tile `t` of `layerOut`. -/
theorem flushed_eq (c : Dev nD) (t : Fin cfg0.N) :
    (dat0 V c).flushed 6 t = ((cfg0.win 6).blk t).view.read (Elt Ideal) (layerOut V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz,
    View.ld_unit_zero (S := S128x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 4000) (q : Fin 128), j = ix2 p q := ⟨j 0, j 1, eq_ix2 j⟩
  show k0_pay1 (F := Ideal) (iblk0 V c 0 t) (iblk0 V c 2 t) (iblk0 V c 1 t) (iblk0 V c 3 t) (iblk0 V c 4 t) (iblk0 V c 5 t) (ix2 p q)
    = layerOut V c (((cfg0.win 6).blk t).view.emb (ix2 p q))
  refine point (iblk0 V c 0 t) (iblk0 V c 1 t) (iblk0 V c 2 t) (iblk0 V c 3 t) (iblk0 V c 4 t) (iblk0 V c 5 t)
    (nodeRows V c) (selfRows V c) (degInv V c) (wLeft V c) (wRight V c) (bias V c) p q
    (((cfg0.win 6).blk t).view.emb (ix2 p q)) ?_ ?_ ?_ ?_ ?_ ?_ ?_
  · show win0_6.index t (1 : Fin 2) * 128 + 1 * q.val = q.val
    omega
  · intro k
    show V c main_v25 (((cfg0.win 0).blk t).view.emb (ix2 p k)) = V c main_v25 _
    refine congrArg _ (funext fun a => Fin.ext ?_)
    match a with
    | ⟨0, _⟩ => show win0_0.index t (0 : Fin 2) * 4000 + 1 * p.val = win0_6.index t (0 : Fin 2) * 4000 + 1 * p.val; omega
    | ⟨1, _⟩ => show win0_0.index t (1 : Fin 2) * 128 + 1 * k.val = k.val; omega
  · intro k
    show V c main_arg0 (((cfg0.win 1).blk t).view.emb (ix2 p k)) = V c main_arg0 _
    refine congrArg _ (funext fun a => Fin.ext ?_)
    match a with
    | ⟨0, _⟩ => show win0_1.index t (0 : Fin 2) * 4000 + 1 * p.val = win0_6.index t (0 : Fin 2) * 4000 + 1 * p.val; omega
    | ⟨1, _⟩ => show win0_1.index t (1 : Fin 2) * 128 + 1 * k.val = k.val; omega
  · show V c main_v15 (((cfg0.win 2).blk t).view.emb (ix2 p 0)) = V c main_v15 _
    refine congrArg _ (funext fun a => Fin.ext ?_)
    match a with
    | ⟨0, _⟩ => show win0_2.index t (0 : Fin 2) * 4000 + 1 * p.val = win0_6.index t (0 : Fin 2) * 4000 + 1 * p.val; omega
    | ⟨1, _⟩ => show win0_2.index t (1 : Fin 2) * 1 + 1 * 0 = 0; omega
  · intro k c'
    show V c main_arg2 (((cfg0.win 3).blk t).view.emb (ix2 k c')) = V c main_arg2 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * c'.val = c'.val; omega
  · intro k c'
    show V c main_arg3 (((cfg0.win 4).blk t).view.emb (ix2 k c')) = V c main_arg3 _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * c'.val = c'.val; omega
  · intro c'
    show V c main_v26 (((cfg0.win 5).blk t).view.emb (ix2 0 c')) = V c main_v26 _
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * c'.val = c'.val; omega

/-- An index of the result array is in tile `t` iff each coordinate is in the tile's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v27).slice (win0_6.rect t)).set ↔ _
  rw [View.set_slice_whole, Rect.mem_set_unit]
  exact Iff.rfl

/-- The 25 tiles cover the result array: row r lies in tile r / 4000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- THE RESULT ARRAY after the launch is `layerOut` of the arrays the launch found. -/
theorem final (c : Dev nD) : (dat0 V c).arrAt 6 cfg0.N = layerOut V c :=
  (dat0 V c).arrAt_eq_of_cover 6 (layerOut V c) (fun t _ => flushed_eq V c t) (cover)

end Cert.KernelIdeal.Layer0

end
-- ==== Proof.Layer1.lean ====
/-
  The second fused-layer launch as ONE function of the arrays it finds.

  The launch walks 25 row tiles of 4000 nodes. At tile t it fetches rows 4000·t … 4000·t + 3999 of the aggregated
  features, of the nodes' own features and of the reciprocal-degree column, the whole of both weight matrices and of the
  bias row, and writes rows 4000·t … of the result. A tile's entry (p, q) is the layer's value at row p of the tile
  (KernelPoint.lean), which reads row p of the tile's node data only — row 4000·t + p of the arrays — so the tile is
  the restriction of one whole-array function, `layerOut`, and since the 25 tiles cover all 100000 rows the result
  array after the launch IS that function.
-/
import proofs.«114157_j28346784153651_2_alg».proof.Proof.Gen.KernelIdeal.Frame
import proofs.«114157_j28346784153651_2_alg».proof.Proof.KernelPoint
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The launch's operands as it finds them, read by coordinates. -/
def nodeRows (c : Dev nD) : Fin 100000 → Fin 128 → EReal := fun r k => (V c main_v40 : S100000x128.Idx → EReal) (ix2 r k)
def selfRows (c : Dev nD) : Fin 100000 → Fin 128 → EReal := fun r k => (V c main_v27 : S100000x128.Idx → EReal) (ix2 r k)
def degInv (c : Dev nD) : Fin 100000 → EReal := fun r => (V c main_v15 : S100000x1.Idx → EReal) (ix2 r 0)
def wLeft (c : Dev nD) : Fin 128 → Fin 128 → EReal := fun k q => (V c main_v28 : S128x128.Idx → EReal) (ix2 k q)
def wRight (c : Dev nD) : Fin 128 → Fin 128 → EReal := fun k q => (V c main_v29 : S128x128.Idx → EReal) (ix2 k q)
def bias (c : Dev nD) : Fin 128 → EReal := fun q => (V c main_v41 : S1x128.Idx → EReal) (ix2 0 q)

/-- What the result array holds after the launch: the layer's value at every node and channel. -/
def layerOut (c : Dev nD) : S100000x128.Idx → EReal := fun i =>
  pre (nodeRows V c) (selfRows V c) (degInv V c) (wLeft V c) (wRight V c) (bias V c) (i 0) (i 1)

theorem hz : (![0, 0] : Fin 2 → Nat) = fun _ => 0 := funext fun a => by fin_cases a <;> rfl

/-- A tile's stored entry (p, q) from operands that agree with whole-array operands on the rows and columns the entry
    reads: the whole-array layer's value at the matching array index `i`. -/
theorem point (x0 x1 : Vec Ideal S4000x128 .f32) (x2 : Vec Ideal S4000x1 .f32) (x3 x4 : Vec Ideal S128x128 .f32)
    (x5 : Vec Ideal S1x128 .f32) (A X : Fin 100000 → Fin 128 → EReal) (D : Fin 100000 → EReal)
    (Wl Wr : Fin 128 → Fin 128 → EReal) (B : Fin 128 → EReal) (p : Fin 4000) (q : Fin 128) (i : S100000x128.Idx)
    (hq : (i 1).val = q.val)
    (h0 : ∀ k : Fin 128, x0 (ix2 p k) = A (i 0) k) (h1 : ∀ k : Fin 128, x1 (ix2 p k) = X (i 0) k)
    (h2 : x2 (ix2 p 0) = D (i 0)) (h3 : ∀ (k c : Fin 128), x3 (ix2 k c) = Wl k c)
    (h4 : ∀ (k c : Fin 128), x4 (ix2 k c) = Wr k c) (h5 : ∀ c : Fin 128, x5 (ix2 0 c) = B c) :
    k1_pay1 (F := Ideal) x0 x2 x1 x3 x4 x5 (ix2 p q) = pre A X D Wl Wr B (i 0) (i 1) := by
  have e : i 1 = q := Fin.ext hq
  rw [Cert.KernelIdeal.Point.pay1_apply, e]
  exact pre_entry _ _ _ _ _ _ A X D Wl Wr B p (i 0) q q h0 h1 h2 (fun k => h3 k q) (fun k => h4 k q) (h5 q)

/-- The printed index maps over the 25 tiles: the three row-tiled inputs move with the output tile, the weights and the
    bias stay put, and the output's tile index is the tile's number. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 24 ∧ win1_6.index t (1 : Fin 2) = 0 :=
  (by decide +kernel : ∀ t : Fin grid1.N, _)

/-- Every tile number is some grid point's. -/
theorem idx_onto : ∀ q0 : Fin 25, ∃ t : Fin cfg1.N, win1_6.index t = ![q0.val, 0] :=
  (by decide +kernel : ∀ q0 : Fin 25, ∃ t : Fin grid1.N, win1_6.index t = ![q0.val, 0])

/-- WHAT TILE `t` WRITES BACK is tile `t` of `layerOut`. -/
theorem flushed_eq (c : Dev nD) (t : Fin cfg1.N) :
    (dat1 V c).flushed 6 t = ((cfg1.win 6).blk t).view.read (Elt Ideal) (layerOut V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S128x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 4000) (q : Fin 128), j = ix2 p q := ⟨j 0, j 1, eq_ix2 j⟩
  show k1_pay1 (F := Ideal) (iblk1 V c 0 t) (iblk1 V c 2 t) (iblk1 V c 1 t) (iblk1 V c 3 t) (iblk1 V c 4 t) (iblk1 V c 5 t) (ix2 p q)
    = layerOut V c (((cfg1.win 6).blk t).view.emb (ix2 p q))
  refine point (iblk1 V c 0 t) (iblk1 V c 1 t) (iblk1 V c 2 t) (iblk1 V c 3 t) (iblk1 V c 4 t) (iblk1 V c 5 t)
    (nodeRows V c) (selfRows V c) (degInv V c) (wLeft V c) (wRight V c) (bias V c) p q
    (((cfg1.win 6).blk t).view.emb (ix2 p q)) ?_ ?_ ?_ ?_ ?_ ?_ ?_
  · show win1_6.index t (1 : Fin 2) * 128 + 1 * q.val = q.val
    omega
  · intro k
    show V c main_v40 (((cfg1.win 0).blk t).view.emb (ix2 p k)) = V c main_v40 _
    refine congrArg _ (funext fun a => Fin.ext ?_)
    match a with
    | ⟨0, _⟩ => show win1_0.index t (0 : Fin 2) * 4000 + 1 * p.val = win1_6.index t (0 : Fin 2) * 4000 + 1 * p.val; omega
    | ⟨1, _⟩ => show win1_0.index t (1 : Fin 2) * 128 + 1 * k.val = k.val; omega
  · intro k
    show V c main_v27 (((cfg1.win 1).blk t).view.emb (ix2 p k)) = V c main_v27 _
    refine congrArg _ (funext fun a => Fin.ext ?_)
    match a with
    | ⟨0, _⟩ => show win1_1.index t (0 : Fin 2) * 4000 + 1 * p.val = win1_6.index t (0 : Fin 2) * 4000 + 1 * p.val; omega
    | ⟨1, _⟩ => show win1_1.index t (1 : Fin 2) * 128 + 1 * k.val = k.val; omega
  · show V c main_v15 (((cfg1.win 2).blk t).view.emb (ix2 p 0)) = V c main_v15 _
    refine congrArg _ (funext fun a => Fin.ext ?_)
    match a with
    | ⟨0, _⟩ => show win1_2.index t (0 : Fin 2) * 4000 + 1 * p.val = win1_6.index t (0 : Fin 2) * 4000 + 1 * p.val; omega
    | ⟨1, _⟩ => show win1_2.index t (1 : Fin 2) * 1 + 1 * 0 = 0; omega
  · intro k c'
    show V c main_v28 (((cfg1.win 3).blk t).view.emb (ix2 k c')) = V c main_v28 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * c'.val = c'.val; omega
  · intro k c'
    show V c main_v29 (((cfg1.win 4).blk t).view.emb (ix2 k c')) = V c main_v29 _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * c'.val = c'.val; omega
  · intro c'
    show V c main_v41 (((cfg1.win 5).blk t).view.emb (ix2 0 c')) = V c main_v41 _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * c'.val = c'.val; omega

/-- An index of the result array is in tile `t` iff each coordinate is in the tile's range on its axis. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v42).slice (win1_6.rect t)).set ↔ _
  rw [View.set_slice_whole, Rect.mem_set_unit]
  exact Iff.rfl

/-- The 25 tiles cover the result array: row r lies in tile r / 4000. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- THE RESULT ARRAY after the launch is `layerOut` of the arrays the launch found. -/
theorem final (c : Dev nD) : (dat1 V c).arrAt 6 cfg1.N = layerOut V c :=
  (dat1 V c).arrAt_eq_of_cover 6 (layerOut V c) (fun t _ => flushed_eq V c t) (cover)

end Cert.KernelIdeal.Layer1

end
-- ==== Proof.RefLayers.lean ====
/-
  The reference's two layers, entry by entry.

  Read one operation at a time (RefRead.lean), the reference's hidden array is, at node r and channel c, the maximum
  with zero of the layer's value `Sage.pre` of the aggregated input features, the input features, the reciprocal
  degrees and the first layer's weights and bias; its result is, at node r and channel c < 64, the layer's value of the
  aggregated hidden features, the hidden features, the same reciprocal degrees and the second layer's weights and bias.
  The scatter-adds and gathers that aggregate stay closed: both programs apply the same ones.
-/
import proofs.«114157_j28346784153651_2_alg».proof.Proof.RefRead
import proofs.«114157_j28346784153651_2_alg».proof.Proof.SageLayer
import Idealize.ShloMosaic.Lib.ValueIdx

noncomputable section

namespace Cert.ReferenceIdeal.Layers

open Cert.ReferenceIdeal Cert.ReferenceIdeal.ReadP Idealize.ShloMosaic Idealize.ShloMosaic.ValueIdx Cert.Sage

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x64, .f32⟩ : BufTy).Contents (Elt Ideal)) (x7 : (⟨S64, .f32⟩ : BufTy).Contents (Elt Ideal))

/-- The hidden array at node r, channel c: the first layer's value, cut off below at zero. -/
theorem hidden_apply (r : Fin 100000) (c : Fin 128) :
    val_main_v34 (F := Ideal) x0 x1 x2 x3 x4 (ix2 r c)
      = max (pre (fun r k => val_main_v24 (F := Ideal) x0 x1 (ix2 r k)) (fun r k => x0 (ix2 r k))
          (fun r => val_main_v14 (F := Ideal) x1 (ix1 r)) (fun k q => x2 (ix2 k q)) (fun k q => x3 (ix2 k q))
          (fun q => x4 (ix1 q)) r c) (Ideal.ofBits .f32 0x00000000#32) := by
  have el : ∀ k : Fin 128, lidx_main_v28 (ix2 r c) k = ix2 r k := fun k => funext fun a => Fin.ext (by
    match a with | ⟨0, _⟩ => rfl | ⟨1, _⟩ => rfl)
  have er : ∀ k : Fin 128, ridx_main_v28 (ix2 r c) k = ix2 k c := fun k => funext fun a => Fin.ext (by
    match a with | ⟨0, _⟩ => rfl | ⟨1, _⟩ => rfl)
  have el' : ∀ k : Fin 128, lidx_main_v29 (ix2 r c) k = ix2 r k := fun k => funext fun a => Fin.ext (by
    match a with | ⟨0, _⟩ => rfl | ⟨1, _⟩ => rfl)
  have er' : ∀ k : Fin 128, ridx_main_v29 (ix2 r c) k = ix2 k c := fun k => funext fun a => Fin.ext (by
    match a with | ⟨0, _⟩ => rfl | ⟨1, _⟩ => rfl)
  have ed : ∀ k : Fin 128, idx_main_v25 (idx_main_v26 (ix2 r k)) = ix1 r := fun k => funext fun a => Fin.ext (by
    match a with | ⟨0, _⟩ => rfl)
  have eb : idx_main_v31 (idx_main_v32 (ix2 r c)) = ix1 c := funext fun a => Fin.ext (by
    match a with | ⟨0, _⟩ => rfl)
  rw [val_main_v34_apply, val_main_v33_apply, val_main_v30_apply, val_main_v28_apply, val_main_v29_apply,
    val_main_v32_apply, val_main_v31_apply, val_main_call1_v0_apply, val_main_call1_cst_apply, eb]
  unfold pre
  simp only [Ideal.maximumf_def, Ideal.addf_def, Ideal.ofBits_def]
  refine congrArg₂ max (congrArg₂ (· + ·) (congrArg₂ (· + ·) (Finset.sum_congr rfl fun k _ => ?_)
    (Finset.sum_congr rfl fun k _ => ?_)) rfl) rfl
  · rw [el k, er k, val_main_v27_apply, val_main_v26_apply, val_main_v25_apply, ed k]
    rfl
  · rw [el' k, er' k]

/-- The result at node r, channel c: the second layer's value. -/
theorem result_apply (r : Fin 100000) (c : Fin 64) :
    val_main_v53 (F := Ideal) x0 x1 x2 x3 x4 x5 x6 x7 (ix2 r c)
      = pre (fun r k => val_main_v44 (F := Ideal) x0 x1 x2 x3 x4 (ix2 r k)) (fun r k => val_main_v34 (F := Ideal) x0 x1 x2 x3 x4 (ix2 r k))
          (fun r => val_main_v14 (F := Ideal) x1 (ix1 r)) (fun k q => x5 (ix2 k q)) (fun k q => x6 (ix2 k q))
          (fun q => x7 (ix1 q)) r c := by
  have el : ∀ k : Fin 128, lidx_main_v48 (ix2 r c) k = ix2 r k := fun k => funext fun a => Fin.ext (by
    match a with | ⟨0, _⟩ => rfl | ⟨1, _⟩ => rfl)
  have er : ∀ k : Fin 128, ridx_main_v48 (ix2 r c) k = ix2 k c := fun k => funext fun a => Fin.ext (by
    match a with | ⟨0, _⟩ => rfl | ⟨1, _⟩ => rfl)
  have el' : ∀ k : Fin 128, lidx_main_v49 (ix2 r c) k = ix2 r k := fun k => funext fun a => Fin.ext (by
    match a with | ⟨0, _⟩ => rfl | ⟨1, _⟩ => rfl)
  have er' : ∀ k : Fin 128, ridx_main_v49 (ix2 r c) k = ix2 k c := fun k => funext fun a => Fin.ext (by
    match a with | ⟨0, _⟩ => rfl | ⟨1, _⟩ => rfl)
  have ed : ∀ k : Fin 128, idx_main_v45 (idx_main_v46 (ix2 r k)) = ix1 r := fun k => funext fun a => Fin.ext (by
    match a with | ⟨0, _⟩ => rfl)
  have eb : idx_main_v51 (idx_main_v52 (ix2 r c)) = ix1 c := funext fun a => Fin.ext (by
    match a with | ⟨0, _⟩ => rfl)
  rw [val_main_v53_apply, val_main_v50_apply, val_main_v48_apply, val_main_v49_apply,
    val_main_v52_apply, val_main_v51_apply, eb]
  unfold pre
  simp only [Ideal.addf_def]
  refine congrArg₂ (· + ·) (congrArg₂ (· + ·) (Finset.sum_congr rfl fun k _ => ?_)
    (Finset.sum_congr rfl fun k _ => ?_)) rfl
  · rw [el k, er k, val_main_v47_apply, val_main_v46_apply, val_main_v45_apply, ed k]
    rfl
  · rw [el' k, er' k]

end Cert.ReferenceIdeal.Layers

end
-- ==== Proof.KernelWhole.lean ====
/-
  The kernel program's result as the reference's own function of the arguments.

  Through @main: the first launch finds the aggregated input features, the input features, the reciprocal-degree
  column, the first layer's weights and its bias row (HostFold.lean), and leaves the hidden array — the layer's value
  cut off at zero at every node and channel (Layer0.lean), which is the reference's hidden array entry by entry
  (RefLayers.lean). The second launch finds the aggregated hidden features, the hidden features, the same column,
  and the second layer's weights and bias padded from 64 to 128 channels; it leaves the layer's value on all 128
  channels (Layer1.lean), and the closing slice keeps channels 0 … 63. An entry of a layer reads one column of the
  weights and one entry of the bias, and below channel 64 the padded ones are the originals, so what is kept is the
  reference's result entry by entry. No finiteness is used: no sum is re-associated and no factor moved.
-/
import proofs.«114157_j28346784153651_2_alg».proof.Proof.Gen.KernelIdeal.Frame
import proofs.«114157_j28346784153651_2_alg».proof.Proof.HostFold
import proofs.«114157_j28346784153651_2_alg».proof.Proof.Layer0
import proofs.«114157_j28346784153651_2_alg».proof.Proof.Layer1
import proofs.«114157_j28346784153651_2_alg».proof.Proof.RefLayers
import proofs.«114157_j28346784153651_2_alg».proof.Proof.LibRows
import Idealize.ShloMosaic.Lib.KernelVsHost
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg) (c : Dev nD)

/-- The argument arrays as launched, at the types the reference's stages take them. -/
abbrev a0 : (⟨Cert.ReferenceIdeal.S100000x128, .f32⟩ : BufTy).Contents (Elt Ideal) := m ((c.tc : Thread nD τ).loc main_arg0)
abbrev a1 : (⟨Cert.ReferenceIdeal.S2x1600000, .i32⟩ : BufTy).Contents (Elt Ideal) := m ((c.tc : Thread nD τ).loc main_arg1)
abbrev a2 : (⟨Cert.ReferenceIdeal.S128x128, .f32⟩ : BufTy).Contents (Elt Ideal) := m ((c.tc : Thread nD τ).loc main_arg2)
abbrev a3 : (⟨Cert.ReferenceIdeal.S128x128, .f32⟩ : BufTy).Contents (Elt Ideal) := m ((c.tc : Thread nD τ).loc main_arg3)
abbrev a4 : (⟨Cert.ReferenceIdeal.S128, .f32⟩ : BufTy).Contents (Elt Ideal) := m ((c.tc : Thread nD τ).loc main_arg4)
abbrev a5 : (⟨Cert.ReferenceIdeal.S128x64, .f32⟩ : BufTy).Contents (Elt Ideal) := m ((c.tc : Thread nD τ).loc main_arg5)
abbrev a6 : (⟨Cert.ReferenceIdeal.S128x64, .f32⟩ : BufTy).Contents (Elt Ideal) := m ((c.tc : Thread nD τ).loc main_arg6)
abbrev a7 : (⟨Cert.ReferenceIdeal.S64, .f32⟩ : BufTy).Contents (Elt Ideal) := m ((c.tc : Thread nD τ).loc main_arg7)

/-! ## What the first launch finds -/

theorem W3_v25 : W3 m ρ c (Proc.devRef .tc main_v25) = Cert.ReferenceIdeal.ReadP.val_main_v24 (F := Ideal) (a0 m c) (a1 m c) :=
  (Host.before0_v25 (W0 m ρ c)).trans rfl
theorem W3_arg0 : W3 m ρ c (Proc.devRef .tc main_arg0) = a0 m c := (Host.before0_arg0 (W0 m ρ c)).trans rfl
theorem W3_v15 : W3 m ρ c (Proc.devRef .tc main_v15)
    = shapeCast S100000x1 (Cert.ReferenceIdeal.ReadP.val_main_v14 (F := Ideal) (a1 m c)) shapeCasts_S100000_S100000x1 :=
  (Host.before0_v15 (W0 m ρ c)).trans rfl
theorem W3_arg2 : W3 m ρ c (Proc.devRef .tc main_arg2) = a2 m c := (Host.before0_arg2 (W0 m ρ c)).trans rfl
theorem W3_arg3 : W3 m ρ c (Proc.devRef .tc main_arg3) = a3 m c := (Host.before0_arg3 (W0 m ρ c)).trans rfl
theorem W3_v26 : W3 m ρ c (Proc.devRef .tc main_v26) = shapeCast S1x128 (a4 m c) shapeCasts_S128_S1x128 :=
  (Host.before0_v26 (W0 m ρ c)).trans rfl
theorem W3_v1 : W3 m ρ c (Proc.devRef .tc main_v1) = Cert.ReferenceIdeal.ReadP.val_main_v1 (F := Ideal) (a1 m c) :=
  (Host.before0_v1 (W0 m ρ c)).trans rfl
theorem W3_v3 : W3 m ρ c (Proc.devRef .tc main_v3) = Cert.ReferenceIdeal.ReadP.val_main_v3 (F := Ideal) (a1 m c) :=
  (Host.before0_v3 (W0 m ρ c)).trans rfl
theorem W3_arg5 : W3 m ρ c (Proc.devRef .tc main_arg5) = a5 m c := (Host.before0_arg5 (W0 m ρ c)).trans rfl
theorem W3_arg6 : W3 m ρ c (Proc.devRef .tc main_arg6) = a6 m c := (Host.before0_arg6 (W0 m ρ c)).trans rfl
theorem W3_arg7 : W3 m ρ c (Proc.devRef .tc main_arg7) = a7 m c := (Host.before0_arg7 (W0 m ρ c)).trans rfl

/-- THE HIDDEN ARRAY the first launch leaves is the reference's. -/
theorem hidden : Layer0.layerOut (V3 m ρ) c = Cert.ReferenceIdeal.ReadP.val_main_v34 (F := Ideal) (a0 m c) (a1 m c) (a2 m c) (a3 m c) (a4 m c) := by
  funext i
  obtain ⟨r, q, rfl⟩ : ∃ (r : Fin 100000) (q : Fin 128), i = ix2 r q := ⟨i 0, i 1, eq_ix2 i⟩
  rw [Cert.ReferenceIdeal.Layers.hidden_apply]
  unfold Layer0.layerOut
  refine congrArg₂ max (pre_congr ?_ ?_ ?_ ?_ ?_ ?_ r q) rfl
  · funext r' k; exact congrFun (W3_v25 m ρ c) (ix2 r' k)
  · funext r' k; exact congrFun (W3_arg0 m ρ c) (ix2 r' k)
  · funext r'
    refine (congrFun (W3_v15 m ρ c) (ix2 r' 0)).trans ?_
    exact Cert.Rows.cast_col _ _ r'
  · funext k q'; exact congrFun (W3_arg2 m ρ c) (ix2 k q')
  · funext k q'; exact congrFun (W3_arg3 m ρ c) (ix2 k q')
  · funext q'
    refine (congrFun (W3_v26 m ρ c) (ix2 0 q')).trans ?_
    exact shapeCast_a_1a_apply _ _ 0 q'

/-! ## What the second launch finds -/

theorem W4_v27 : W4 m ρ c (Proc.devRef .tc main_v27) = Cert.ReferenceIdeal.ReadP.val_main_v34 (F := Ideal) (a0 m c) (a1 m c) (a2 m c) (a3 m c) (a4 m c) :=
  (W4_arr m ρ c 6).trans ((Layer0.final (V3 m ρ) c).trans (hidden m ρ c))
theorem W4_v15 : W4 m ρ c (Proc.devRef .tc main_v15)
    = shapeCast S100000x1 (Cert.ReferenceIdeal.ReadP.val_main_v14 (F := Ideal) (a1 m c)) shapeCasts_S100000_S100000x1 :=
  (W4_arr m ρ c 2).trans (((dat0 (V3 m ρ) c).arrAt_in 2 rfl _).trans ((A_eq0 (V3 m ρ) c 2).trans (W3_v15 m ρ c)))
theorem W4_v1 : W4 m ρ c (Proc.devRef .tc main_v1) = Cert.ReferenceIdeal.ReadP.val_main_v1 (F := Ideal) (a1 m c) :=
  (W4_of_ne m ρ c main_v1 (by decide)).trans (W3_v1 m ρ c)
theorem W4_v3 : W4 m ρ c (Proc.devRef .tc main_v3) = Cert.ReferenceIdeal.ReadP.val_main_v3 (F := Ideal) (a1 m c) :=
  (W4_of_ne m ρ c main_v3 (by decide)).trans (W3_v3 m ρ c)
theorem W4_arg5 : W4 m ρ c (Proc.devRef .tc main_arg5) = a5 m c := (W4_of_ne m ρ c main_arg5 (by decide)).trans (W3_arg5 m ρ c)
theorem W4_arg6 : W4 m ρ c (Proc.devRef .tc main_arg6) = a6 m c := (W4_of_ne m ρ c main_arg6 (by decide)).trans (W3_arg6 m ρ c)
theorem W4_arg7 : W4 m ρ c (Proc.devRef .tc main_arg7) = a7 m c := (W4_of_ne m ρ c main_arg7 (by decide)).trans (W3_arg7 m ρ c)

theorem W11_v40 : W11 m ρ c (Proc.devRef .tc main_v40) = Cert.ReferenceIdeal.ReadP.val_main_v44 (F := Ideal) (a0 m c) (a1 m c) (a2 m c) (a3 m c) (a4 m c) := by
  refine (Host.between_v40 (W4 m ρ c)).trans ?_
  rw [W4_v27, W4_v1, W4_v3]
  rfl
theorem W11_v27 : W11 m ρ c (Proc.devRef .tc main_v27) = Cert.ReferenceIdeal.ReadP.val_main_v34 (F := Ideal) (a0 m c) (a1 m c) (a2 m c) (a3 m c) (a4 m c) :=
  (Host.between_v27 (W4 m ρ c)).trans (W4_v27 m ρ c)
theorem W11_v15 : W11 m ρ c (Proc.devRef .tc main_v15)
    = shapeCast S100000x1 (Cert.ReferenceIdeal.ReadP.val_main_v14 (F := Ideal) (a1 m c)) shapeCasts_S100000_S100000x1 :=
  (Host.between_v15 (W4 m ρ c)).trans (W4_v15 m ρ c)
theorem W11_v28 : W11 m ρ c (Proc.devRef .tc main_v28)
    = pad S128x128 ![0, 0] ![0, 64] ![0, 0] (a5 m c) Host.padValue pads_S128x64_S128x128_000_0640 h_S_ := by
  refine (Host.between_v28 (W4 m ρ c)).trans ?_
  rw [W4_arg5]
theorem W11_v29 : W11 m ρ c (Proc.devRef .tc main_v29)
    = pad S128x128 ![0, 0] ![0, 64] ![0, 0] (a6 m c) Host.padValue pads_S128x64_S128x128_000_0640 h_S_ := by
  refine (Host.between_v29 (W4 m ρ c)).trans ?_
  rw [W4_arg6]
theorem W11_v41 : W11 m ρ c (Proc.devRef .tc main_v41)
    = shapeCast S1x128 (pad S128 ![0] ![64] ![0] (a7 m c) Host.padValue pads_S64_S128_0640 h_S_) shapeCasts_S128_S1x128 := by
  refine (Host.between_v41 (W4 m ρ c)).trans ?_
  rw [W4_arg7]

/-- A padded weight matrix below channel 64 is the weight matrix. -/
theorem padded_weight (w : (⟨Cert.ReferenceIdeal.S128x64, .f32⟩ : BufTy).Contents (Elt Ideal)) (k : Fin 128) (q : Fin 64) (q' : Fin 128)
    (hq : q'.val = 0 + q.val) :
    pad S128x128 ![0, 0] ![0, 64] ![0, 0] w Host.padValue pads_S128x64_S128x128_000_0640 h_S_ (ix2 k q') = w (ix2 k q) :=
  pad_apply_of_inside ![0, 0] ![0, 64] ![0, 0] w Host.padValue pads_S128x64_S128x128_000_0640 h_S_ (ix2 k q') (ix2 k q)
    (fun a => match a with
      | ⟨0, _⟩ => by show k.val = 0 + k.val * (0 + 1); omega
      | ⟨1, _⟩ => by show q'.val = 0 + q.val * (0 + 1); omega)

/-- A padded bias below channel 64 is the bias. -/
theorem padded_bias (b : (⟨Cert.ReferenceIdeal.S64, .f32⟩ : BufTy).Contents (Elt Ideal)) (q : Fin 64) (q' : Fin 128)
    (hq : q'.val = 0 + q.val) :
    pad S128 ![0] ![64] ![0] b Host.padValue pads_S64_S128_0640 h_S_ (ix1 q') = b (ix1 q) :=
  pad_apply_of_inside ![0] ![64] ![0] b Host.padValue pads_S64_S128_0640 h_S_ (ix1 q') (ix1 q)
    (fun a => match a with
      | ⟨0, _⟩ => by show q'.val = 0 + q.val * (0 + 1); omega)

/-! ## The result -/

/-- THE RESULT ARRAY after @main is the reference's result of the arguments. -/
theorem result : W13 m ρ c (Proc.devRef .tc main_v43)
    = Cert.ReferenceIdeal.ReadP.val_main_v53 (F := Ideal) (a0 m c) (a1 m c) (a2 m c) (a3 m c) (a4 m c) (a5 m c) (a6 m c) (a7 m c) := by
  refine (Host.after1_v43 (W12 m ρ c)).trans ?_
  rw [(W12_arr m ρ c 6).trans (Layer1.final (V11 m ρ) c)]
  funext i
  obtain ⟨r, q, rfl⟩ : ∃ (r : Fin 100000) (q : Fin 64), i = ix2 r q := ⟨i 0, i 1, eq_ix2 i⟩
  rw [slice2_axis1_eq 0 _ _ r q, Cert.ReferenceIdeal.Layers.result_apply]
  unfold Layer1.layerOut
  refine pre_entry _ _ _ _ _ _ _ _ _ _ _ _ r r _ q ?_ ?_ ?_ ?_ ?_ ?_
  · intro k; exact congrFun (W11_v40 m ρ c) (ix2 r k)
  · intro k; exact congrFun (W11_v27 m ρ c) (ix2 r k)
  · refine (congrFun (W11_v15 m ρ c) (ix2 r 0)).trans ?_
    exact Cert.Rows.cast_col _ _ r
  · intro k
    refine (congrFun (W11_v28 m ρ c) _).trans ?_
    exact padded_weight (a5 m c) k q _ rfl
  · intro k
    refine (congrFun (W11_v29 m ρ c) _).trans ?_
    exact padded_weight (a6 m c) k q _ rfl
  · refine (congrFun (W11_v41 m ρ c) _).trans ?_
    refine (shapeCast_a_1a_apply _ _ 0 _).trans ?_
    exact padded_bias (a7 m c) q _ rfl

end Cert.KernelIdeal.Whole

end
-- ==== Proof.lean ====
/-
  A two-layer GraphSAGE network with mean aggregation, 100000 nodes, 1600000 edges, 128 → 128 → 64 channels: the
  kernel program against its jnp reference, over the extended reals.

  Both programs split the edge list into sources and destinations, count the in-degrees by a scatter-add of ones,
  take the guarded reciprocal (1 / max(deg, 1) where deg > 0, else 0), and for each layer gather the features of the
  edges' sources and scatter-add them into the destinations. The reference then computes
  (agg · deginv) · Wl + x · Wr + b with two matrix products on the host, with a maximum against zero after the first
  layer. The kernel program instead runs one fused launch per layer over 25 row tiles of 4000 nodes, its matrix
  products taking their operands rounded to bfloat16 — the identity over the extended reals —, and for the second
  layer pads the weights and the bias from 64 to 128 channels with zeros and cuts the result back to 64 channels.

  The proof: the kernel program's run with its result named (KernelRun.lean, beside the generated frame); each
  launch's result array as one whole-array function of what the launch finds (KernelPoint.lean, Layer0.lean,
  Layer1.lean); the host operations around the launches read buffer by buffer (HostFold.lean); the reference's two
  layers read entry by entry (RefRun.lean, RefRead.lean, RefLayers.lean); and the two results equal entry by entry
  (KernelWhole.lean): an entry of a layer is `Sage.pre` (SageLayer.lean) of the same operands on both sides, and it
  reads only the row of its node and the column of its channel. The sums are the same sums in the same order, so the
  precondition (finite inputs) is not used. The idealization rewrote nothing, so `preserves` is trivial.
-/
import proofs.«114157_j28346784153651_2_alg».proof.Defs
import proofs.«114157_j28346784153651_2_alg».proof.Proof.Gen.Kernel
import proofs.«114157_j28346784153651_2_alg».proof.Proof.Gen.Kernel.Skeleton
import proofs.«114157_j28346784153651_2_alg».proof.Proof.Gen.Kernel.Launch
import proofs.«114157_j28346784153651_2_alg».proof.Proof.Gen.Kernel.Points
import proofs.«114157_j28346784153651_2_alg».proof.Proof.Gen.Kernel.Frame
import proofs.«114157_j28346784153651_2_alg».proof.Proof.Gen.KernelIdeal
import proofs.«114157_j28346784153651_2_alg».proof.Proof.Gen.KernelIdeal.Skeleton
import proofs.«114157_j28346784153651_2_alg».proof.Proof.Gen.KernelIdeal.Launch
import proofs.«114157_j28346784153651_2_alg».proof.Proof.Gen.KernelIdeal.Points
import proofs.«114157_j28346784153651_2_alg».proof.Proof.Gen.KernelIdeal.Frame
import proofs.«114157_j28346784153651_2_alg».proof.Proof.Gen.ReferenceIdeal
import proofs.«114157_j28346784153651_2_alg».proof.Proof.RefRun
import proofs.«114157_j28346784153651_2_alg».proof.Proof.RefRead
import proofs.«114157_j28346784153651_2_alg».proof.Proof.KernelRun
import proofs.«114157_j28346784153651_2_alg».proof.Proof.KernelWhole
import proofs.«114157_j28346784153651_2_alg».proof.Proof.Gen.Pre_finite_inputs
import Idealize.ShloMosaic.Adequacy
import Idealize.ShloMosaic.Init

noncomputable section

namespace Cert.Proof

open Idealize.ShloMosaic Idealize.SL.Sem

/-- The two kernel programs run and keep their arguments: the generated frame certificates. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same result: the reference's result
    stage of the arguments. -/
theorem algebraic : Cert.algebraic_KernelIdeal_ReferenceIdeal := by
  intro m ρ m' ρ' _ hagree
  refine ⟨fun c => Cert.ReferenceIdeal.ReadP.val_main_v53 (F := Ideal) (Cert.KernelIdeal.Whole.a0 m c)
    (Cert.KernelIdeal.Whole.a1 m c) (Cert.KernelIdeal.Whole.a2 m c) (Cert.KernelIdeal.Whole.a3 m c)
    (Cert.KernelIdeal.Whole.a4 m c) (Cert.KernelIdeal.Whole.a5 m c) (Cert.KernelIdeal.Whole.a6 m c)
    (Cert.KernelIdeal.Whole.a7 m c), ?_, ?_⟩
  · exact (θ_run Cert.KernelIdeal.defs _ _).mono
      (fun r h c => ⟨(h c).1.trans (Cert.KernelIdeal.Whole.result m ρ c), (h c).2⟩)
      (Cert.KernelIdeal.Run.run_result m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v53_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
